-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000x4 : Shape := ⟨3, ![64, 100000, 4]⟩
abbrev S_ : Shape := ⟨0, ![]⟩

class Facts : Prop where
  bcast_S_S64x100000x4 : S_.BroadcastsInDim S64x100000x4 (![] : Fin 0 → Fin S64x100000x4.rank)
  reducesTo_S64x100000x4_S_d0_1_2 : S64x100000x4.ReducesTo [0, 1, 2] S_
  h_S_ : 0 < S_.numel

variable [Facts]

def fn {F : FTy → Type} [FloatOps F] (main_arg0 : FVec F S64x100000x4 .f32) (main_arg1 : FVec F S64x100000x4 .f32) : IVec S_ 1 :=
  let main_v0 : FVec F S64x100000x4 .f32 := Host.absf main_arg0
  let main_cst : FVec F S_ .f32 := constant S_ .f32 0x7F800000#32
  let main_v1 : FVec F S64x100000x4 .f32 := broadcastInDim S64x100000x4 ![] bcast_S_S64x100000x4 main_cst
  let main_v2 : IVec S64x100000x4 1 := cmpf .olt main_v0 main_v1
  let main_c : IVec S_ 1 := constantI S_ 1 1#1
  let main_v3 : IVec S_ 1 := (fun x v => Host.reduce IntOp.andi x v reducesTo_S64x100000x4_S_d0_1_2 h_S_) main_v2 main_c
  let main_v4 : FVec F S64x100000x4 .f32 := Host.absf main_arg1
  let main_cst_0 : FVec F S_ .f32 := constant S_ .f32 0x7F800000#32
  let main_v5 : FVec F S64x100000x4 .f32 := broadcastInDim S64x100000x4 ![] bcast_S_S64x100000x4 main_cst_0
  let main_v6 : IVec S64x100000x4 1 := cmpf .olt main_v4 main_v5
  let main_c_1 : IVec S_ 1 := constantI S_ 1 1#1
  let main_v7 : IVec S_ 1 := (fun x v => Host.reduce IntOp.andi x v reducesTo_S64x100000x4_S_d0_1_2 h_S_) main_v6 main_c_1
  let main_v8 : IVec S_ 1 := andi main_v3 main_v7
  main_v8
-- ==== Kernel.lean ====
abbrev S64x100000x4 : Shape := ⟨3, ![64, 100000, 4]⟩
abbrev S64x40x4 : Shape := ⟨3, ![64, 40, 4]⟩
abbrev S64x40x1 : Shape := ⟨3, ![64, 40, 1]⟩
abbrev S64x40 : Shape := ⟨2, ![64, 40]⟩

abbrev nBuf : Space → Nat
  | .hbm => 3
  | .vmem => 6
  | .smem => 0
  | _ => 0

abbrev bufTy : (tb : Table) → Fin (tcTables nBuf tb) → BufTy
  | .hbm, ⟨0, _⟩ => ⟨S64x100000x4, .f32⟩
  | .hbm, ⟨1, _⟩ => ⟨S64x100000x4, .f32⟩
  | .hbm, ⟨2, _⟩ => ⟨S64x100000x4, .f32⟩
  | .local _ .vmem, ⟨0, _⟩ => ⟨S64x40x4, .f32⟩
  | .local _ .vmem, ⟨1, _⟩ => ⟨S64x40x4, .f32⟩
  | .local _ .vmem, ⟨2, _⟩ => ⟨S64x40x4, .f32⟩
  | .local _ .vmem, ⟨3, _⟩ => ⟨S64x40x4, .f32⟩
  | .local _ .vmem, ⟨4, _⟩ => ⟨S64x40x4, .f32⟩
  | .local _ .vmem, ⟨5, _⟩ => ⟨S64x40x4, .f32⟩
  | _, _ => ⟨S64x100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x40x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x40x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x40x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x40x4_S64x40x4_0_0_0 : ∀ a, (![0, 0, 0] : Fin 3 → Nat) a + S64x40x4.size a ≤ S64x40x4.size a
  h_S64x40x4 : 0 < S64x40x4.numel
  slices_S64x40x4_o0_0_0_S64x40x1 : S64x40x4.Slices ![0, 0, 0] S64x40x1
  shapeCasts_S64x40x1_S64x40 : S64x40x1.ShapeCasts S64x40
  slices_S64x40x4_o0_0_1_S64x40x1 : S64x40x4.Slices ![0, 0, 1] S64x40x1
  slices_S64x40x4_o0_0_2_S64x40x1 : S64x40x4.Slices ![0, 0, 2] S64x40x1
  slices_S64x40x4_o0_0_3_S64x40x1 : S64x40x4.Slices ![0, 0, 3] S64x40x1
  shapeCasts_S64x40_S64x40x1 : S64x40.ShapeCasts S64x40x1
  concatenates_S64x40x1_S64x40x1_S64x40x1_S64x40x1_S64x40x4_d2 : Shape.Concatenates [S64x40x1, S64x40x1, S64x40x1, S64x40x1] S64x40x4 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x40x4.size a ≤ S64x100000x4.size a
  hwx0_0 : ∀ i : grid0.Coords, EltTy.bits .f32 = 32 ∨ (Rect.block (s := S64x100000x4) S64x40x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x40x4.size a ≤ S64x100000x4.size a
  hwx0_1 : ∀ i : grid0.Coords, EltTy.bits .f32 = 32 ∨ (Rect.block (s := S64x100000x4) S64x40x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x40x4.size a ≤ S64x100000x4.size a
  hwx0_2 : ∀ i : grid0.Coords, EltTy.bits .f32 = 32 ∨ (Rect.block (s := S64x100000x4) S64x40x4.size (cc0_transform_2 i) (hinb0_2 i)).WholeWords (EltTy.packing .f32)

variable [Facts₀]

abbrev win0_0 : Pipeline.Window sig grid0 :=
  Pipeline.Window.ofSpec (Memref.whole main_arg0) S64x40x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x40x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x40x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x100000x4 : Shape := ⟨3, ![64, 100000, 4]⟩
abbrev S64x100000x1 : Shape := ⟨3, ![64, 100000, 1]⟩
abbrev S64x100000 : Shape := ⟨2, ![64, 100000]⟩

abbrev nBuf : Space → Nat
  | .hbm => 51
  | .vmem => 0
  | .smem => 0
  | _ => 0

abbrev bufTy : (tb : Table) → Fin (tcTables nBuf tb) → BufTy
  | .hbm, ⟨0, _⟩ => ⟨S64x100000x4, .f32⟩
  | .hbm, ⟨1, _⟩ => ⟨S64x100000x4, .f32⟩
  | .hbm, ⟨2, _⟩ => ⟨S64x100000x1, .f32⟩
  | .hbm, ⟨3, _⟩ => ⟨S64x100000, .f32⟩
  | .hbm, ⟨4, _⟩ => ⟨S64x100000x1, .f32⟩
  | .hbm, ⟨5, _⟩ => ⟨S64x100000, .f32⟩
  | .hbm, ⟨6, _⟩ => ⟨S64x100000x1, .f32⟩
  | .hbm, ⟨7, _⟩ => ⟨S64x100000, .f32⟩
  | .hbm, ⟨8, _⟩ => ⟨S64x100000x1, .f32⟩
  | .hbm, ⟨9, _⟩ => ⟨S64x100000, .f32⟩
  | .hbm, ⟨10, _⟩ => ⟨S64x100000x1, .f32⟩
  | .hbm, ⟨11, _⟩ => ⟨S64x100000, .f32⟩
  | .hbm, ⟨12, _⟩ => ⟨S64x100000x1, .f32⟩
  | .hbm, ⟨13, _⟩ => ⟨S64x100000, .f32⟩
  | .hbm, ⟨14, _⟩ => ⟨S64x100000x1, .f32⟩
  | .hbm, ⟨15, _⟩ => ⟨S64x100000, .f32⟩
  | .hbm, ⟨16, _⟩ => ⟨S64x100000x1, .f32⟩
  | .hbm, ⟨17, _⟩ => ⟨S64x100000, .f32⟩
  | .hbm, ⟨18, _⟩ => ⟨S64x100000, .f32⟩
  | .hbm, ⟨19, _⟩ => ⟨S64x100000, .f32⟩
  | .hbm, ⟨20, _⟩ => ⟨S64x100000, .f32⟩
  | .hbm, ⟨21, _⟩ => ⟨S64x100000, .f32⟩
  | .hbm, ⟨22, _⟩ => ⟨S64x100000, .f32⟩
  | .hbm, ⟨23, _⟩ => ⟨S64x100000, .f32⟩
  | .hbm, ⟨24, _⟩ => ⟨S64x100000, .f32⟩
  | .hbm, ⟨25, _⟩ => ⟨S64x100000, .f32⟩
  | .hbm, ⟨26, _⟩ => ⟨S64x100000, .f32⟩
  | .hbm, ⟨27, _⟩ => ⟨S64x100000, .f32⟩
  | .hbm, ⟨28, _⟩ => ⟨S64x100000, .f32⟩
  | .hbm, ⟨29, _⟩ => ⟨S64x100000, .f32⟩
  | .hbm, ⟨30, _⟩ => ⟨S64x100000, .f32⟩
  | .hbm, ⟨31, _⟩ => ⟨S64x100000, .f32⟩
  | .hbm, ⟨32, _⟩ => ⟨S64x100000, .f32⟩
  | .hbm, ⟨33, _⟩ => ⟨S64x100000, .f32⟩
  | .hbm, ⟨34, _⟩ => ⟨S64x100000, .f32⟩
  | .hbm, ⟨35, _⟩ => ⟨S64x100000, .f32⟩
  | .hbm, ⟨36, _⟩ => ⟨S64x100000, .f32⟩
  | .hbm, ⟨37, _⟩ => ⟨S64x100000, .f32⟩
  | .hbm, ⟨38, _⟩ => ⟨S64x100000, .f32⟩
  | .hbm, ⟨39, _⟩ => ⟨S64x100000, .f32⟩
  | .hbm, ⟨40, _⟩ => ⟨S64x100000, .f32⟩
  | .hbm, ⟨41, _⟩ => ⟨S64x100000, .f32⟩
  | .hbm, ⟨42, _⟩ => ⟨S64x100000, .f32⟩
  | .hbm, ⟨43, _⟩ => ⟨S64x100000, .f32⟩
  | .hbm, ⟨44, _⟩ => ⟨S64x100000, .f32⟩
  | .hbm, ⟨45, _⟩ => ⟨S64x100000, .f32⟩
  | .hbm, ⟨46, _⟩ => ⟨S64x100000x1, .f32⟩
  | .hbm, ⟨47, _⟩ => ⟨S64x100000x1, .f32⟩
  | .hbm, ⟨48, _⟩ => ⟨S64x100000x1, .f32⟩
  | .hbm, ⟨49, _⟩ => ⟨S64x100000x1, .f32⟩
  | .hbm, ⟨50, _⟩ => ⟨S64x100000x4, .f32⟩
  | _, _ => ⟨S64x100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩

abbrev nD : Nat := 1
abbrev τ : Topo := Topo.v7x

variable {F : FTy → Type} [FloatOps F]

class Facts₀ : Prop where
  slices_S64x100000x4_S64x100000x1_0_0_0 : S64x100000x4.Slices ![0, 0, 0] S64x100000x1
  shapeCasts_S64x100000x1_S64x100000 : S64x100000x1.ShapeCasts S64x100000
  slices_S64x100000x4_S64x100000x1_0_0_1 : S64x100000x4.Slices ![0, 0, 1] S64x100000x1
  slices_S64x100000x4_S64x100000x1_0_0_2 : S64x100000x4.Slices ![0, 0, 2] S64x100000x1
  slices_S64x100000x4_S64x100000x1_0_0_3 : S64x100000x4.Slices ![0, 0, 3] S64x100000x1
  bcast_S64x100000_S64x100000x1_0_1 : S64x100000.BroadcastsInDim S64x100000x1 (![0, 1] : Fin 2 → Fin S64x100000x1.rank)
  concatenates_S64x100000x1_S64x100000x1_S64x100000x1_S64x100000x1_S64x100000x4_d2 : Shape.Concatenates [S64x100000x1, S64x100000x1, S64x100000x1, S64x100000x1] S64x100000x4 2

variable [Facts₀]

class Facts : Prop extends Facts₀ where

variable [Facts]
-- ==== Proof.Hamilton.lean ====
/-
  The Hamilton product of quaternions, as both programs compute it.

  A quaternion is its four components in the order (w, x, y, z). For a = (w₁, x₁, y₁, z₁) and b = (w₂, x₂, y₂, z₂)
  the product a·b has the components
      w = ((w₁w₂ − x₁x₂) − y₁y₂) − z₁z₂
      x = ((w₁x₂ + x₁w₂) + y₁z₂) − z₁y₂
      y = ((w₁y₂ − x₁z₂) + y₁w₂) + z₁x₂
      z = ((w₁z₂ + x₁y₂) − y₁x₂) + z₁w₂
  with the four products of each line summed from left to right. Both programs group the sums exactly so, which is
  why the two results agree for every float instance and no law of arithmetic is used: the definitions below are over
  an arbitrary instance `F`.

  A table of quaternions has extents [A, N, 4], the components along the last axis. The product of two tables is taken
  quaternion by quaternion: entry (p, r, k) is component `k` of the product of the quaternions at (p, r). The same
  definition serves a block of rows of a table (N the rows of the block) and the whole table.
-/
import Idealize.ShloMosaic.Lib.ValueIdx

noncomputable section

namespace Cert.Hamilton

open Idealize.ShloMosaic Idealize.ShloMosaic.ValueIdx

variable {F : FTy → Type} [FloatOps F]

/-- Component `k` of the Hamilton product of the quaternions `a` and `b`, each given by its four components
    (w, x, y, z) = (`a 0`, `a 1`, `a 2`, `a 3`); the products of a line are summed from left to right. -/
def comp (a b : Fin 4 → F .f32) : Fin 4 → F .f32 := fun k => match k with
  | ⟨0, _⟩ => FloatOps.subf (FloatOps.subf (FloatOps.subf (FloatOps.mulf (a 0) (b 0)) (FloatOps.mulf (a 1) (b 1))) (FloatOps.mulf (a 2) (b 2))) (FloatOps.mulf (a 3) (b 3))
  | ⟨1, _⟩ => FloatOps.subf (FloatOps.addf (FloatOps.addf (FloatOps.mulf (a 0) (b 1)) (FloatOps.mulf (a 1) (b 0))) (FloatOps.mulf (a 2) (b 3))) (FloatOps.mulf (a 3) (b 2))
  | ⟨2, _⟩ => FloatOps.addf (FloatOps.addf (FloatOps.subf (FloatOps.mulf (a 0) (b 2)) (FloatOps.mulf (a 1) (b 3))) (FloatOps.mulf (a 2) (b 0))) (FloatOps.mulf (a 3) (b 1))
  | ⟨3, _⟩ => FloatOps.addf (FloatOps.subf (FloatOps.addf (FloatOps.mulf (a 0) (b 3)) (FloatOps.mulf (a 1) (b 2))) (FloatOps.mulf (a 2) (b 1))) (FloatOps.mulf (a 3) (b 0))

/-- The quaternion of the table `q` at position (p, r): its four components along the last axis. -/
def quatAt {A N : Nat} (q : FVec F ⟨3, ![A, N, 4]⟩ .f32) (p : Fin A) (r : Fin N) : Fin 4 → F .f32 :=
  fun n => q (ix3 p r n)

/-- The product of two tables of quaternions, quaternion by quaternion: entry (p, r, k) is component `k` of the product
    of the quaternions the two tables hold at (p, r). -/
def prod {A N : Nat} (q1 q2 : FVec F ⟨3, ![A, N, 4]⟩ .f32) : FVec F ⟨3, ![A, N, 4]⟩ .f32 :=
  fun i => comp (quatAt q1 (i 0) (i 1)) (quatAt q2 (i 0) (i 1)) (i 2)

/-- The product at the entry of coordinates (p, r, k). -/
theorem prod_ix3 {A N : Nat} (q1 q2 : FVec F ⟨3, ![A, N, 4]⟩ .f32) (p : Fin A) (r : Fin N) (k : Fin 4) :
    prod q1 q2 (ix3 p r k) = comp (quatAt q1 p r) (quatAt q2 p r) k := rfl

/-- The product at an entry depends only on the two quaternions at its position: a table of other extents that holds
    the same two quaternions at (p', r') has the same components of the product there. This is how a block of rows of
    the product is read off the whole tables. -/
theorem prod_eq_of_quatAt {A N A' N' : Nat} (q1 q2 : FVec F ⟨3, ![A, N, 4]⟩ .f32) (q1' q2' : FVec F ⟨3, ![A', N', 4]⟩ .f32)
    (p : Fin A) (r : Fin N) (p' : Fin A') (r' : Fin N') (k : Fin 4)
    (h1 : quatAt q1 p r = quatAt q1' p' r') (h2 : quatAt q2 p r = quatAt q2' p' r') :
    prod q1 q2 (ix3 p r k) = prod q1' q2' (ix3 p' r' k) := by
  rw [prod_ix3, prod_ix3, h1, h2]

end Cert.Hamilton

end
-- ==== Proof.Block.lean ====
/-
  One block of the kernel's output is the Hamilton product of the two input blocks.

  At a grid point the kernel loads a block of 64 × 40 quaternions from each argument. It cuts each block into its four
  components (a [64, 40, 1] slice of the last axis, made a 64 × 40 table), forms the four components of the product
  from them entry by entry, makes each a [64, 40, 1] column again and joins the four columns along the last axis. So
  the entry (p, r, k) of the block it stores is taken from column `k` at (p, r, 0), which holds component `k` of the
  product of the two quaternions at (p, r): the block is `Hamilton.prod` of the two loaded blocks.
-/
import proofs.«161529_j32401233281621_2_alg».proof.Proof.Gen.KernelIdeal.Value
import proofs.«161529_j32401233281621_2_alg».proof.Proof.Hamilton
import Idealize.ShloMosaic.Lib.Pipeline.Value
import Idealize.ShloMosaic.Lib.ValueIdx

noncomputable section

namespace Cert.KernelIdeal.Quat

open Cert.KernelIdeal Cert.KernelIdeal.Gen Idealize.ShloMosaic Idealize.ShloMosaic.ValueIdx

variable {F : FTy → Type} [FloatOps F]

/-- A 64 × 40 table made a [64, 40, 1] column holds at (p, r, 0) the table's entry (p, r): the two indices are the
    same position in row-major order. -/
theorem column_apply (v : FVec F S64x40 .f32) (h : S64x40.ShapeCasts S64x40x1) (i : S64x40x1.Idx) (p : Fin 64) (r : Fin 40)
    (h0 : (i 0).val = p.val) (h1 : (i 1).val = r.val) : shapeCast S64x40x1 v h i = v (ix2 p r) := by
  refine shapeCast_apply v h i (ix2 p r) ?_
  rewrite [Shape.rowMajor_val_two, Shape.rowMajor_val_three]
  have h2 : (i 2).val < 1 := (i 2).isLt
  show p.val * 40 + r.val = ((i 0).val * 40 + (i 1).val) * 1 + (i 2).val
  omega

/-- Component `o` of a block of quaternions — the slice at offset `o` of the last axis, made a 64 × 40 table — holds at
    (p, r) component `o` of the quaternion at (p, r). -/
theorem component_apply (P : FVec F S64x40x4 .f32) (o : Nat) (ho : o < 4) (hs : S64x40x4.Slices ![0, 0, o] S64x40x1)
    (hc : S64x40x1.ShapeCasts S64x40) (p : Fin 64) (r : Fin 40) :
    shapeCast S64x40 (extractStridedSlice S64x40x1 ![0, 0, o] P hs) hc (ix2 p r) = P (ix3 p r ⟨o, ho⟩) := by
  refine (shapeCast_apply _ hc (ix2 p r) (ix3 p r (0 : Fin 1)) ?_).trans ?_
  · rewrite [Shape.rowMajor_val_three, Shape.rowMajor_val_two]
    show (p.val * 40 + r.val) * 1 + 0 = p.val * 40 + r.val
    omega
  · exact extractStridedSlice_apply _ P hs _ _ (fun a => match a with
      | ⟨0, _⟩ => by show p.val = 0 + p.val; omega
      | ⟨1, _⟩ => by show r.val = 0 + r.val; omega
      | ⟨2, _⟩ => by show o = o + 0; omega)

/-- THE BLOCK: what the body's stores leave in the output block, as a function of the two loaded blocks, is their
    Hamilton product, entry by entry. -/
theorem block_eq (P0 P1 : Vec F S64x40x4 .f32) (y : S64x40x4.Idx) :
    Value.E2 P0 P1 y = Cert.Hamilton.prod P0 P1 y := by
  obtain ⟨p, r, k, rfl⟩ : ∃ (p : Fin 64) (r : Fin 40) (k : Fin 4), y = ix3 p r k := ⟨y 0, y 1, y 2, eq_ix3 y⟩
  rw [Cert.Hamilton.prod_ix3]
  match k with
  | ⟨0, _⟩ =>
    refine (column_apply _ _ _ p r rfl rfl).trans ?_
    simp only [subf, addf, mulf, component_apply _ 0 (by decide), component_apply _ 1 (by decide),
      component_apply _ 2 (by decide), component_apply _ 3 (by decide)]
    rfl
  | ⟨1, _⟩ =>
    refine (column_apply _ _ _ p r rfl rfl).trans ?_
    simp only [subf, addf, mulf, component_apply _ 0 (by decide), component_apply _ 1 (by decide),
      component_apply _ 2 (by decide), component_apply _ 3 (by decide)]
    rfl
  | ⟨2, _⟩ =>
    refine (column_apply _ _ _ p r rfl rfl).trans ?_
    simp only [subf, addf, mulf, component_apply _ 0 (by decide), component_apply _ 1 (by decide),
      component_apply _ 2 (by decide), component_apply _ 3 (by decide)]
    rfl
  | ⟨3, _⟩ =>
    refine (column_apply _ _ _ p r rfl rfl).trans ?_
    simp only [subf, addf, mulf, component_apply _ 0 (by decide), component_apply _ 1 (by decide),
      component_apply _ 2 (by decide), component_apply _ 3 (by decide)]
    rfl

end Cert.KernelIdeal.Quat

end
-- ==== Proof.Table.lean ====
/-
  From the blocks to the whole table: the kernel's result is the Hamilton product of its two argument tables.

  The grid has 2500 points. At point `t` each of the three windows — the two arguments and the result — is on block
  (0, t, 0) of its [64, 100000, 4] table, a block of [64, 40, 4]: rows 40·t … 40·t + 39 of every batch, all four
  components. So the quaternion a loaded block holds at (p, r) is the argument's quaternion at (p, 40·t + r), the
  block the point writes back is the product of the loaded blocks (`block_eq`), and that is block `t` of the product
  of the whole tables, because the product at a position depends only on the two quaternions there. Row `r` of the
  result lies in the block of point `r / 40`, so the blocks cover the table and the result is the product everywhere.

  In order: the index maps decided over the grid, the block written back at a symbolic point, membership in a block
  by coordinates, the cover, the final table, the run.
-/
import proofs.«161529_j32401233281621_2_alg».proof.Proof.Block
import Idealize.ShloMosaic.Lib.Pipeline.Value
import Idealize.ShloMosaic.Lib.ValueIdx

set_option maxRecDepth 16384

noncomputable section

namespace Cert.KernelIdeal.Quat

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The body's one load and one store per buffer are through the whole block: offsets zero. -/
theorem zero_offsets : (![0, 0, 0] : Fin 3 → Nat) = fun _ => 0 := funext fun a => by fin_cases a <;> rfl

/-- The printed index maps, decided over the 2500 grid points: at point `t` every window is on block (0, t, 0). -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- The grid has 2500 points. -/
theorem point_lt (t : Fin cfg0.N) : t.val < 2500 := lt_of_lt_of_eq t.isLt N_0

/-- The quaternion the first argument's block holds at (p, r) at point `t` is the argument's at (p, 40·t + r). -/
theorem iblk0_quat (c : Dev nD) (t : Fin cfg0.N) (p : Fin 64) (r : Fin 40) (r' : Fin 100000) (hr : r'.val = t.val * 40 + r.val) :
    Cert.Hamilton.quatAt (A := 64) (N := 40) (iblk m c 0 t) p r = Cert.Hamilton.quatAt (A := 64) (N := 100000) (V m c main_arg0) p r' := by
  obtain ⟨e0, e1, e2, -⟩ := idx_facts t
  funext n
  show V m c main_arg0 (((cfg0.win 0).blk t).view.emb (ix3 p r n)) = V m c main_arg0 (ix3 p r' n)
  refine congrArg _ (funext fun a => Fin.ext ?_)
  match a with
  | ⟨0, _⟩ => show win0_0.index t (0 : Fin 3) * 64 + 1 * p.val = p.val; omega
  | ⟨1, _⟩ => show win0_0.index t (1 : Fin 3) * 40 + 1 * r.val = r'.val; omega
  | ⟨2, _⟩ => show win0_0.index t (2 : Fin 3) * 4 + 1 * n.val = n.val; omega

/-- The same for the second argument's block. -/
theorem iblk1_quat (c : Dev nD) (t : Fin cfg0.N) (p : Fin 64) (r : Fin 40) (r' : Fin 100000) (hr : r'.val = t.val * 40 + r.val) :
    Cert.Hamilton.quatAt (A := 64) (N := 40) (iblk m c 1 t) p r = Cert.Hamilton.quatAt (A := 64) (N := 100000) (V m c main_arg1) p r' := by
  obtain ⟨-, -, -, e0, e1, e2, -⟩ := idx_facts t
  funext n
  show V m c main_arg1 (((cfg0.win 1).blk t).view.emb (ix3 p r n)) = V m c main_arg1 (ix3 p r' n)
  refine congrArg _ (funext fun a => Fin.ext ?_)
  match a with
  | ⟨0, _⟩ => show win0_1.index t (0 : Fin 3) * 64 + 1 * p.val = p.val; omega
  | ⟨1, _⟩ => show win0_1.index t (1 : Fin 3) * 40 + 1 * r.val = r'.val; omega
  | ⟨2, _⟩ => show win0_1.index t (2 : Fin 3) * 4 + 1 * n.val = n.val; omega

/-- WHAT POINT `t` WRITES BACK is block `t` of the Hamilton product of the two argument tables. -/
theorem flushed_eq (c : Dev nD) (t : Fin cfg0.N) :
    (dats m 0 c).flushed 2 t
      = ((cfg0.win 2).blk t).view.read (Elt F) (Cert.Hamilton.prod (A := 64) (N := 100000) (V m c main_arg0) (V m c main_arg1)) := by
  rw [flushed2]
  unfold out0_2
  simp only [View.ld_unit_zero (S := S64x40x4) zero_offsets]
  obtain ⟨-, -, -, -, -, -, e0, e1, e2⟩ := idx_facts t
  have ht : t.val < 2500 := point_lt t
  refine funext fun (j : S64x40x4.Idx) => ?_
  obtain ⟨p, r, k, rfl⟩ : ∃ (p : Fin 64) (r : Fin 40) (k : Fin 4), j = ix3 p r k := ⟨j 0, j 1, j 2, eq_ix3 j⟩
  have hr : t.val * 40 + r.val < 100000 := by have := r.isLt; omega
  show View.canon [(⟨r0_0, k0_pay1 (iblk m c 0 t) (iblk m c 1 t)⟩ : View.Piece (Elt F) S64x40x4 .f32)] (ix3 p r k)
    = Cert.Hamilton.prod (A := 64) (N := 100000) (V m c main_arg0) (V m c main_arg1) (((cfg0.win 2).blk t).view.emb (ix3 p r k))
  refine (canon2_eq (iblk m c 0 t) (iblk m c 1 t) (ix3 p r k)).trans ?_
  refine (block_eq (iblk m c 0 t) (iblk m c 1 t) (ix3 p r k)).trans ?_
  have hemb : ((cfg0.win 2).blk t).view.emb (ix3 p r k) = ix3 p (⟨t.val * 40 + r.val, hr⟩ : Fin 100000) k := by
    refine funext fun a => Fin.ext ?_
    match a with
    | ⟨0, _⟩ => show win0_2.index t (0 : Fin 3) * 64 + 1 * p.val = p.val; omega
    | ⟨1, _⟩ => show win0_2.index t (1 : Fin 3) * 40 + 1 * r.val = t.val * 40 + r.val; omega
    | ⟨2, _⟩ => show win0_2.index t (2 : Fin 3) * 4 + 1 * k.val = k.val; omega
  rw [hemb]
  exact Cert.Hamilton.prod_eq_of_quatAt _ _ _ _ p r p ⟨t.val * 40 + r.val, hr⟩ k
    (iblk0_quat m c t p r ⟨t.val * 40 + r.val, hr⟩ rfl) (iblk1_quat m c t p r ⟨t.val * 40 + r.val, hr⟩ rfl)

/-- An index of the result table is in point `t`'s block iff each coordinate is in the block's range on its axis. -/
theorem mem_blk (t : Fin cfg0.N) (i : S64x100000x4.Idx) :
    i ∈ ((cfg0.win 2).blk t).view.set ↔ ∀ a : Fin 3, win0_2.index t a * S64x40x4.size a ≤ (i a).val
      ∧ (i a).val < win0_2.index t a * S64x40x4.size a + S64x40x4.size a := by
  show i ∈ ((View.whole main_v0).slice (win0_2.rect t)).set ↔ _
  rw [View.set_slice_whole, Rect.mem_set_unit]
  exact Iff.rfl

/-- THE COVER: every index of the result table is in the block of the point its row divided by 40 names, and every
    point writes its block back. -/
theorem cover (i : S64x100000x4.Idx) :
    ∃ t : Fin cfg0.N, (cfg0.win 2).flush t = true ∧ i ∈ ((cfg0.win 2).blk t).view.set := by
  have h0 : (i 0).val < 64 := (i 0).isLt
  have h1 : (i 1).val < 100000 := (i 1).isLt
  have h2 : (i 2).val < 4 := (i 2).isLt
  have hN : grid0.N = 2500 := N_0
  have hlt : (i 1).val / 40 < cfg0.N := by show (i 1).val / 40 < grid0.N; rw [hN]; omega
  obtain ⟨-, -, -, -, -, -, e0, e1, e2⟩ := idx_facts ⟨(i 1).val / 40, hlt⟩
  have e1' : win0_2.index ⟨(i 1).val / 40, hlt⟩ (1 : Fin 3) = (i 1).val / 40 := e1
  refine ⟨⟨(i 1).val / 40, hlt⟩, flush0_2 _, ?_⟩
  rw [mem_blk]
  intro a
  match a with
  | ⟨0, _⟩ =>
    show win0_2.index ⟨(i 1).val / 40, hlt⟩ (0 : Fin 3) * 64 ≤ (i 0).val
      ∧ (i 0).val < win0_2.index ⟨(i 1).val / 40, hlt⟩ (0 : Fin 3) * 64 + 64
    omega
  | ⟨1, _⟩ =>
    show win0_2.index ⟨(i 1).val / 40, hlt⟩ (1 : Fin 3) * 40 ≤ (i 1).val
      ∧ (i 1).val < win0_2.index ⟨(i 1).val / 40, hlt⟩ (1 : Fin 3) * 40 + 40
    omega
  | ⟨2, _⟩ =>
    show win0_2.index ⟨(i 1).val / 40, hlt⟩ (2 : Fin 3) * 4 ≤ (i 2).val
      ∧ (i 2).val < win0_2.index ⟨(i 1).val / 40, hlt⟩ (2 : Fin 3) * 4 + 4
    omega

/-- THE RESULT TABLE after the run is the Hamilton product of the two argument tables. -/
theorem final (c : Dev nD) :
    (dats m 0 c).arrAt 2 cfg0.N = Cert.Hamilton.prod (A := 64) (N := 100000) (V m c main_arg0) (V m c main_arg1) :=
  (dats m 0 c).arrAt_eq_of_cover 2 _ (fun t _ => flushed_eq m c t) cover

/-- THE RUN, read: every weakly fair execution of the kernel's program ends with the result table at the Hamilton
    product of the two argument tables, and the arguments as they were. -/
theorem run : θ_run defs (onTc (τ := τ) (main (F := F))) ⟨m, fun _ => 0, ρ⟩ fun r => ∀ c : Dev nD,
      r.2.mem ((c : Thread nD τ).loc main_v0)
        = Cert.Hamilton.prod (A := 64) (N := 100000) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Quat

end
-- ==== Proof.Reference.lean ====
/-
  The reference computes the Hamilton product of its two argument tables.

  The reference cuts each [64, 100000, 4] argument into its four components (a [64, 100000, 1] slice of the last axis,
  reshaped to a 64 × 100000 table), forms the four components of the product entry by entry, makes each a
  [64, 100000, 1] column and joins the four columns along the last axis. Entry (p, r, k) of the result is therefore
  column `k` at (p, r, 0), which is component `k` of the product of the two quaternions at (p, r).

  The generated read-at-an-index lemmas take every stage but the last to its operands; the joining of the columns is read
  here, and the indices those lemmas compose are identified with the coordinates (p, r, o).
-/
import proofs.«161529_j32401233281621_2_alg».proof.Proof.Gen.ReferenceIdeal.Read
import proofs.«161529_j32401233281621_2_alg».proof.Proof.Hamilton
import Idealize.ShloMosaic.Lib.Pipeline.Value
import Idealize.ShloMosaic.Lib.ValueIdx

noncomputable section

namespace Cert.ReferenceIdeal.Quat

open Cert.ReferenceIdeal Cert.ReferenceIdeal.Gen Cert.ReferenceIdeal.Read Idealize.ShloMosaic Idealize.ShloMosaic.ValueIdx

variable {F : FTy → Type} [FloatOps F]

/-- An index of a table of quaternions is determined by its three coordinates. -/
theorem idx_eq (j : S64x100000x4.Idx) (p : Fin 64) (r : Fin 100000) (o : Fin 4)
    (h0 : (j 0).val = p.val) (h1 : (j 1).val = r.val) (h2 : (j 2).val = o.val) : j = ix3 p r o :=
  funext fun a => Fin.ext (match a with | ⟨0, _⟩ => h0 | ⟨1, _⟩ => h1 | ⟨2, _⟩ => h2)

/-- Row-major position p · 100000 + r of a 64 × 100000 table is row p, -/
theorem row_of (p : Fin 64) (r : Fin 100000) : (p.val * 100000 + r.val) / 100000 = p.val := by
  have hr : r.val < 100000 := r.isLt
  omega

/-- column r. -/
theorem col_of (p : Fin 64) (r : Fin 100000) : (p.val * 100000 + r.val) / 1 % 100000 = r.val := by
  have hr : r.val < 100000 := r.isLt
  omega

/-! ## The four components of each argument: component `o` at (p, r) is the argument's entry (p, r, o) -/

theorem arg0_w (x : FVec F S64x100000x4 .f32) (p : Fin 64) (r : Fin 100000) : val_main_v1 (F := F) x (ix2 p r) = x (ix3 p r 0) := by
  rw [val_main_v1_apply, val_main_v0_apply]
  exact congrArg x (idx_eq _ p r 0 (row_of p r) (col_of p r) rfl)

theorem arg0_x (x : FVec F S64x100000x4 .f32) (p : Fin 64) (r : Fin 100000) : val_main_v3 (F := F) x (ix2 p r) = x (ix3 p r 1) := by
  rw [val_main_v3_apply, val_main_v2_apply]
  exact congrArg x (idx_eq _ p r 1 (row_of p r) (col_of p r) rfl)

theorem arg0_y (x : FVec F S64x100000x4 .f32) (p : Fin 64) (r : Fin 100000) : val_main_v5 (F := F) x (ix2 p r) = x (ix3 p r 2) := by
  rw [val_main_v5_apply, val_main_v4_apply]
  exact congrArg x (idx_eq _ p r 2 (row_of p r) (col_of p r) rfl)

theorem arg0_z (x : FVec F S64x100000x4 .f32) (p : Fin 64) (r : Fin 100000) : val_main_v7 (F := F) x (ix2 p r) = x (ix3 p r 3) := by
  rw [val_main_v7_apply, val_main_v6_apply]
  exact congrArg x (idx_eq _ p r 3 (row_of p r) (col_of p r) rfl)

theorem arg1_w (x : FVec F S64x100000x4 .f32) (p : Fin 64) (r : Fin 100000) : val_main_v9 (F := F) x (ix2 p r) = x (ix3 p r 0) := by
  rw [val_main_v9_apply, val_main_v8_apply]
  exact congrArg x (idx_eq _ p r 0 (row_of p r) (col_of p r) rfl)

theorem arg1_x (x : FVec F S64x100000x4 .f32) (p : Fin 64) (r : Fin 100000) : val_main_v11 (F := F) x (ix2 p r) = x (ix3 p r 1) := by
  rw [val_main_v11_apply, val_main_v10_apply]
  exact congrArg x (idx_eq _ p r 1 (row_of p r) (col_of p r) rfl)

theorem arg1_y (x : FVec F S64x100000x4 .f32) (p : Fin 64) (r : Fin 100000) : val_main_v13 (F := F) x (ix2 p r) = x (ix3 p r 2) := by
  rw [val_main_v13_apply, val_main_v12_apply]
  exact congrArg x (idx_eq _ p r 2 (row_of p r) (col_of p r) rfl)

theorem arg1_z (x : FVec F S64x100000x4 .f32) (p : Fin 64) (r : Fin 100000) : val_main_v15 (F := F) x (ix2 p r) = x (ix3 p r 3) := by
  rw [val_main_v15_apply, val_main_v14_apply]
  exact congrArg x (idx_eq _ p r 3 (row_of p r) (col_of p r) rfl)

/-! ## The four columns, and their joining -/

/-- A 64 × 100000 table made a [64, 100000, 1] column is read at (p, r, 0) from the table's entry (p, r): so for each
    of the four columns. -/
theorem column_idx_w (p : Fin 64) (r : Fin 100000) : idx_main_v44 (ix3 p r (0 : Fin 1)) = ix2 p r :=
  funext fun a => match a with | ⟨0, _⟩ => rfl | ⟨1, _⟩ => rfl
theorem column_idx_x (p : Fin 64) (r : Fin 100000) : idx_main_v45 (ix3 p r (0 : Fin 1)) = ix2 p r :=
  funext fun a => match a with | ⟨0, _⟩ => rfl | ⟨1, _⟩ => rfl
theorem column_idx_y (p : Fin 64) (r : Fin 100000) : idx_main_v46 (ix3 p r (0 : Fin 1)) = ix2 p r :=
  funext fun a => match a with | ⟨0, _⟩ => rfl | ⟨1, _⟩ => rfl
theorem column_idx_z (p : Fin 64) (r : Fin 100000) : idx_main_v47 (ix3 p r (0 : Fin 1)) = ix2 p r :=
  funext fun a => match a with | ⟨0, _⟩ => rfl | ⟨1, _⟩ => rfl

/-- The four columns the reference joins, by their number. -/
abbrev columns (x0 x1 : FVec F S64x100000x4 .f32) : Fin 4 → FVec F S64x100000x1 .f32 := fun n => match n with
  | ⟨0, _⟩ => val_main_v44 (F := F) x0 x1
  | ⟨1, _⟩ => val_main_v45 (F := F) x0 x1
  | ⟨2, _⟩ => val_main_v46 (F := F) x0 x1
  | ⟨3, _⟩ => val_main_v47 (F := F) x0 x1

/-- The joined table at (p, r, k) is column `k` at (p, r, 0): each column has extent one on the joined axis. -/
theorem joined_apply (x0 x1 : FVec F S64x100000x4 .f32) (p : Fin 64) (r : Fin 100000) (k : Fin 4) :
    val_main_v48 (F := F) x0 x1 (ix3 p r k) = columns x0 x1 k (ix3 p r (0 : Fin 1)) := by
  unfold val_main_v48
  show concatenate S64x100000x4 2 (List.ofFn fun n : Fin 4 => (⟨S64x100000x1, columns x0 x1 n⟩ : (s : Shape) × (s.Idx → _))) _ (ix3 p r k) = _
  exact concatenate_ofFn_apply (t := S64x100000x4) (s₁ := S64x100000x1) (2 : Fin 3) (columns x0 x1) _ rfl 1 rfl (ix3 p r k) k
    (by show k.val / 1 = k.val; omega) (ix3 p r (0 : Fin 1)) (by show (0 : Nat) = k.val % 1; omega)
    (fun b hb => by match b with | ⟨0, _⟩ => rfl | ⟨1, _⟩ => rfl | ⟨2, _⟩ => exact absurd rfl hb)

/-- THE REFERENCE'S RESULT, as a function of its two argument tables, is their Hamilton product. -/
theorem result_eq (x0 x1 : FVec F S64x100000x4 .f32) : val_main_v48 (F := F) x0 x1 = Cert.Hamilton.prod x0 x1 := by
  funext i
  obtain ⟨p, r, k, rfl⟩ : ∃ (p : Fin 64) (r : Fin 100000) (k : Fin 4), i = ix3 p r k := ⟨i 0, i 1, i 2, eq_ix3 i⟩
  rw [joined_apply, Cert.Hamilton.prod_ix3]
  match k with
  | ⟨0, _⟩ =>
    show val_main_v44 (F := F) x0 x1 (ix3 p r (0 : Fin 1)) = _
    simp only [val_main_v44_apply, column_idx_w, val_main_v22_apply, val_main_v21_apply, val_main_v20_apply, val_main_v19_apply,
      val_main_v18_apply, val_main_v17_apply, val_main_v16_apply, arg0_w, arg0_x, arg0_y, arg0_z, arg1_w, arg1_x, arg1_y, arg1_z]
    rfl
  | ⟨1, _⟩ =>
    show val_main_v45 (F := F) x0 x1 (ix3 p r (0 : Fin 1)) = _
    simp only [val_main_v45_apply, column_idx_x, val_main_v29_apply, val_main_v28_apply, val_main_v27_apply, val_main_v26_apply,
      val_main_v25_apply, val_main_v24_apply, val_main_v23_apply, arg0_w, arg0_x, arg0_y, arg0_z, arg1_w, arg1_x, arg1_y, arg1_z]
    rfl
  | ⟨2, _⟩ =>
    show val_main_v46 (F := F) x0 x1 (ix3 p r (0 : Fin 1)) = _
    simp only [val_main_v46_apply, column_idx_y, val_main_v36_apply, val_main_v35_apply, val_main_v34_apply, val_main_v33_apply,
      val_main_v32_apply, val_main_v31_apply, val_main_v30_apply, arg0_w, arg0_x, arg0_y, arg0_z, arg1_w, arg1_x, arg1_y, arg1_z]
    rfl
  | ⟨3, _⟩ =>
    show val_main_v47 (F := F) x0 x1 (ix3 p r (0 : Fin 1)) = _
    simp only [val_main_v47_apply, column_idx_z, val_main_v43_apply, val_main_v42_apply, val_main_v41_apply, val_main_v40_apply,
      val_main_v39_apply, val_main_v38_apply, val_main_v37_apply, arg0_w, arg0_x, arg0_y, arg0_z, arg1_w, arg1_x, arg1_y, arg1_z]
    rfl

end Cert.ReferenceIdeal.Quat

end
-- ==== Proof.lean ====
/-
  The quaternion product kernel computes what its reference computes: the Hamilton product of two tables of 64 × 100000
  quaternions, entry by entry.

  For quaternions a = (w₁, x₁, y₁, z₁) and b = (w₂, x₂, y₂, z₂) both programs form
      w = ((w₁w₂ − x₁x₂) − y₁y₂) − z₁z₂        x = ((w₁x₂ + x₁w₂) + y₁z₂) − z₁y₂
      y = ((w₁y₂ − x₁z₂) + y₁w₂) + z₁x₂        z = ((w₁z₂ + x₁y₂) − y₁x₂) + z₁w₂
  with the same products summed in the same order (`Hamilton.comp`), so the two results are the same term of the
  arguments and no law of arithmetic — and nothing about the inputs being finite — is needed.

  The kernel works block by block: 2500 grid points, each on rows 40·t … 40·t + 39 of every batch. One block it writes
  back is the product of the two blocks it loaded (`Quat.block_eq`); that is block `t` of the product of the whole
  tables, and the blocks cover the result (`Quat.flushed_eq`, `Quat.cover`, `Quat.run`). The reference slices, multiplies
  and joins whole tables, and its result read entry by entry is the same product (`Quat.result_eq`).

  The kernel's idealization rewrote no operation, so that conjunct is `True`; the three programs' frames are the
  generated frame runs, the reference's being its run with the result dropped.
-/
import proofs.«161529_j32401233281621_2_alg».proof.Defs
import proofs.«161529_j32401233281621_2_alg».proof.Proof.Gen.Kernel
import proofs.«161529_j32401233281621_2_alg».proof.Proof.Gen.Kernel.Frame
import proofs.«161529_j32401233281621_2_alg».proof.Proof.Gen.KernelIdeal
import proofs.«161529_j32401233281621_2_alg».proof.Proof.Gen.KernelIdeal.Frame
import proofs.«161529_j32401233281621_2_alg».proof.Proof.Gen.KernelIdeal.Value
import proofs.«161529_j32401233281621_2_alg».proof.Proof.Gen.ReferenceIdeal
import proofs.«161529_j32401233281621_2_alg».proof.Proof.Gen.ReferenceIdeal.Run
import proofs.«161529_j32401233281621_2_alg».proof.Proof.Gen.ReferenceIdeal.Read
import proofs.«161529_j32401233281621_2_alg».proof.Proof.Gen.Pre_finite_inputs
import proofs.«161529_j32401233281621_2_alg».proof.Proof.Table
import proofs.«161529_j32401233281621_2_alg».proof.Proof.Reference

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two argument tables, the kernel's result table and the reference's both end at the
    Hamilton product of the tables: the kernel's by its blocks, the reference's by reading its operations entry by entry. -/
theorem algebraic : Cert.algebraic_KernelIdeal_ReferenceIdeal := by
  intro m ρ m' ρ' _ hagree
  refine ⟨_, Cert.KernelIdeal.Quat.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.Quat.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
